-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x784 : Shape := ⟨2, ![16384, 784]⟩
abbrev S2048x784 : Shape := ⟨2, ![2048, 784]⟩
abbrev S2048 : Shape := ⟨1, ![2048]⟩
abbrev S10x2048 : Shape := ⟨2, ![10, 2048]⟩
abbrev S10 : Shape := ⟨1, ![10]⟩
abbrev S_ : Shape := ⟨0, ![]⟩

class Facts : Prop where
  bcast_S_S16384x784 : S_.BroadcastsInDim S16384x784 (![] : Fin 0 → Fin S16384x784.rank)
  reducesTo_S16384x784_S_d0_1 : S16384x784.ReducesTo [0, 1] S_
  h_S_ : 0 < S_.numel
  bcast_S_S2048x784 : S_.BroadcastsInDim S2048x784 (![] : Fin 0 → Fin S2048x784.rank)
  reducesTo_S2048x784_S_d0_1 : S2048x784.ReducesTo [0, 1] S_
  bcast_S_S2048 : S_.BroadcastsInDim S2048 (![] : Fin 0 → Fin S2048.rank)
  reducesTo_S2048_S_d0 : S2048.ReducesTo [0] S_
  bcast_S_S10x2048 : S_.BroadcastsInDim S10x2048 (![] : Fin 0 → Fin S10x2048.rank)
  reducesTo_S10x2048_S_d0_1 : S10x2048.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S10 .f32) (main_v13 : IVec S_ 1) (main_v16 : IVec S10x2048 1) : IVec S_ 1 :=
  let main_c_5 : IVec S_ 1 := constantI S_ 1 1#1
  let main_v17 : IVec S_ 1 := (fun x v => Host.reduce IntOp.andi x v reducesTo_S10x2048_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S16384x784 .f32) (main_arg1 : FVec F S2048x784 .f32) (main_arg2 : FVec F S2048 .f32) (main_arg3 : FVec F S10x2048 .f32) (main_arg4 : FVec F S10 .f32) : IVec S_ 1 :=
  let main_v0 : FVec F S16384x784 .f32 := Host.absf main_arg0
  let main_cst : FVec F S_ .f32 := constant S_ .f32 0x7F800000#32
  let main_v1 : FVec F S16384x784 .f32 := broadcastInDim S16384x784 ![] bcast_S_S16384x784 main_cst
  let main_v2 : IVec S16384x784 1 := cmpf .olt main_v0 main_v1
  let main_c : IVec S_ 1 := constantI S_ 1 1#1
  let main_v3 : IVec S_ 1 := (fun x v => Host.reduce IntOp.andi x v reducesTo_S16384x784_S_d0_1 h_S_) main_v2 main_c
  let main_v4 : FVec F S2048x784 .f32 := Host.absf main_arg1
  let main_cst_0 : FVec F S_ .f32 := constant S_ .f32 0x7F800000#32
  let main_v5 : FVec F S2048x784 .f32 := broadcastInDim S2048x784 ![] bcast_S_S2048x784 main_cst_0
  let main_v6 : IVec S2048x784 1 := cmpf .olt main_v4 main_v5
  let main_c_1 : IVec S_ 1 := constantI S_ 1 1#1
  let main_v7 : IVec S_ 1 := (fun x v => Host.reduce IntOp.andi x v reducesTo_S2048x784_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S10x2048 .f32 := Host.absf main_arg3
  let main_cst_4 : FVec F S_ .f32 := constant S_ .f32 0x7F800000#32
  let main_v15 : FVec F S10x2048 .f32 := broadcastInDim S10x2048 ![] bcast_S_S10x2048 main_cst_4
  let main_v16 : IVec S10x2048 1 := cmpf .olt main_v14 main_v15
  fn_part1 (F := F) main_arg4 main_v13 main_v16
-- ==== Kernel.lean ====
abbrev S16384x784 : Shape := ⟨2, ![16384, 784]⟩
abbrev S2048x784 : Shape := ⟨2, ![2048, 784]⟩
abbrev S2048 : Shape := ⟨1, ![2048]⟩
abbrev S10x2048 : Shape := ⟨2, ![10, 2048]⟩
abbrev S10 : Shape := ⟨1, ![10]⟩
abbrev S_ : Shape := ⟨0, ![]⟩
abbrev S1x2048 : Shape := ⟨2, ![1, 2048]⟩
abbrev S784x2048 : Shape := ⟨2, ![784, 2048]⟩
abbrev S2048x10 : Shape := ⟨2, ![2048, 10]⟩
abbrev S1x10 : Shape := ⟨2, ![1, 10]⟩
abbrev S16384x10 : Shape := ⟨2, ![16384, 10]⟩
abbrev S1024x784 : Shape := ⟨2, ![1024, 784]⟩
abbrev S1024x10 : Shape := ⟨2, ![1024, 10]⟩
abbrev S1024 : Shape := ⟨1, ![1024]⟩
abbrev S1024x1 : Shape := ⟨2, ![1024, 1]⟩
abbrev S1024x2048 : Shape := ⟨2, ![1024, 2048]⟩

abbrev nBuf : Space → Nat
  | .hbm => 22
  | .vmem => 9
  | .smem => 0
  | _ => 0

abbrev bufTy : (tb : Table) → Fin (tcTables nBuf tb) → BufTy
  | .hbm, ⟨0, _⟩ => ⟨S16384x784, .f32⟩
  | .hbm, ⟨1, _⟩ => ⟨S2048x784, .f32⟩
  | .hbm, ⟨2, _⟩ => ⟨S2048, .f32⟩
  | .hbm, ⟨3, _⟩ => ⟨S10x2048, .f32⟩
  | .hbm, ⟨4, _⟩ => ⟨S10, .f32⟩
  | .hbm, ⟨5, _⟩ => ⟨S2048x784, .f32⟩
  | .hbm, ⟨6, _⟩ => ⟨S_, .f32⟩
  | .hbm, ⟨7, _⟩ => ⟨S2048, .f32⟩
  | .hbm, ⟨8, _⟩ => ⟨S1x2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S784x2048, .f32⟩
  | .hbm, ⟨17, _⟩ => ⟨S784x2048, .bf16⟩
  | .hbm, ⟨18, _⟩ => ⟨S2048x10, .f32⟩
  | .hbm, ⟨19, _⟩ => ⟨S2048x10, .bf16⟩
  | .hbm, ⟨20, _⟩ => ⟨S1x10, .f32⟩
  | .hbm, ⟨21, _⟩ => ⟨S16384x10, .f32⟩
  | .local _ .vmem, ⟨0, _⟩ => ⟨S1024x784, .f32⟩
  | .local _ .vmem, ⟨1, _⟩ => ⟨S1024x784, .f32⟩
  | .local _ .vmem, ⟨2, _⟩ => ⟨S784x2048, .bf16⟩
  | .local _ .vmem, ⟨3, _⟩ => ⟨S1x2048, .f32⟩
  | .local _ .vmem, ⟨4, _⟩ => ⟨S1x2048, .f32⟩
  | .local _ .vmem, ⟨5, _⟩ => ⟨S2048x10, .bf16⟩
  | .local _ .vmem, ⟨6, _⟩ => ⟨S1x10, .f32⟩
  | .local _ .vmem, ⟨7, _⟩ => ⟨S1024x10, .f32⟩
  | .local _ .vmem, ⟨8, _⟩ => ⟨S1024x10, .f32⟩
  | _, _ => ⟨S16384x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x10 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x10 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S2048x784_S2048_d1 : S2048x784.ReducesTo [1] S2048
  h_S_ : 0 < S_.numel
  bcast_S2048_S1x2048_1 : S2048.BroadcastsInDim S1x2048 (![1] : Fin 1 → Fin S1x2048.rank)
  bcast_S_S2048 : S_.BroadcastsInDim S2048 (![] : Fin 0 → Fin S2048.rank)
  transposes_S2048x784_S784x2048_1_0 : S2048x784.Transposes [1, 0] S784x2048
  bitsLt_bf16_f32 : FTy.bits .bf16 < FTy.bits .f32
  transposes_S10x2048_S2048x10_1_0 : S10x2048.Transposes [1, 0] S2048x10
  bcast_S10_S1x10_1 : S10.BroadcastsInDim S1x10 (![1] : Fin 1 → Fin S1x10.rank)
  inb_S1024x784_S1024x784_0_0 : ∀ a, (![0, 0] : Fin 2 → Nat) a + S1024x784.size a ≤ S1024x784.size a
  h_S1024x784 : 0 < S1024x784.numel
  reduces_S1024x784_S1024 : S1024x784.Reduces [1] S1024
  shapeCasts_S1024_S1024x1 : S1024.ShapeCasts S1024x1
  inb_S784x2048_S784x2048_0_0 : ∀ a, (![0, 0] : Fin 2 → Nat) a + S784x2048.size a ≤ S784x2048.size a
  h_S784x2048 : 0 < S784x2048.numel
  shapeCasts_S784x2048_S784x2048 : S784x2048.ShapeCasts S784x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  inb_S2048x10_S2048x10_0_0 : ∀ a, (![0, 0] : Fin 2 → Nat) a + S2048x10.size a ≤ S2048x10.size a
  h_S2048x10 : 0 < S2048x10.numel
  shapeCasts_S2048x10_S2048x10 : S2048x10.ShapeCasts S2048x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  inb_S1024x10_S1024x10_0_0 : ∀ a, (![0, 0] : Fin 2 → Nat) a + S1024x10.size a ≤ S1024x10.size a
  h_S1024x10 : 0 < S1024x10.numel
  dot_S1024x784_S784x2048_S1024x2048_1_0_0_1_n_n_wf : DotDims.WF S1024x784 S784x2048 S1024x2048 [1] [0] [0] [1] [] []
  dot_S1024x2048_S2048x10_S1024x10_1_0_0_1_n_n_wf : DotDims.WF S1024x2048 S2048x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S16384x784.size a
  hwx0_0 : ∀ i : grid0.Coords, EltTy.bits .f32 = 32 ∨ (Rect.block (s := S16384x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x2048.size a ≤ S784x2048.size a
  hwx0_1 : ∀ i : grid0.Coords, EltTy.bits .bf16 = 32 ∨ (Rect.block (s := S784x2048) S784x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x10.size a ≤ S2048x10.size a
  hwx0_4 : ∀ i : grid0.Coords, EltTy.bits .bf16 = 32 ∨ (Rect.block (s := S2048x10) S2048x10.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x10.size a ≤ S1x10.size a
  hwx0_5 : ∀ i : grid0.Coords, EltTy.bits .f32 = 32 ∨ (Rect.block (s := S1x10) S1x10.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x10.size a ≤ S16384x10.size a
  hwx0_6 : ∀ i : grid0.Coords, EltTy.bits .f32 = 32 ∨ (Rect.block (s := S16384x10) S1024x10.size (cc0_transform_6 i) (hinb0_6 i)).WholeWords (EltTy.packing .f32)

variable [Facts₀]

def dot_S1024x784_S784x2048_S1024x2048_1_0_0_1_n_n : DotDims S1024x784 S784x2048 S1024x2048 where
  lhsContracting := [1]
  rhsContracting := [0]
  lhsNonContracting := [0]
  rhsNonContracting := [1]
  lhsBatch := []
  rhsBatch := []
  wf := dot_S1024x784_S784x2048_S1024x2048_1_0_0_1_n_n_wf
def dot_S1024x2048_S2048x10_S1024x10_1_0_0_1_n_n : DotDims S1024x2048 S2048x10 S1024x10 where
  lhsContracting := [1]
  rhsContracting := [0]
  lhsNonContracting := [0]
  rhsNonContracting := [1]
  lhsBatch := []
  rhsBatch := []
  wf := dot_S1024x2048_S2048x10_S1024x10_1_0_0_1_n_n_wf

abbrev win0_0 : Pipeline.Window sig grid0 :=
  Pipeline.Window.ofSpec (Memref.whole main_arg0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S784x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S2048x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1024x10.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x784 : Shape := ⟨2, ![16384, 784]⟩
abbrev S2048x784 : Shape := ⟨2, ![2048, 784]⟩
abbrev S2048 : Shape := ⟨1, ![2048]⟩
abbrev S10x2048 : Shape := ⟨2, ![10, 2048]⟩
abbrev S10 : Shape := ⟨1, ![10]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x2048 : Shape := ⟨2, ![16384, 2048]⟩
abbrev S784x2048 : Shape := ⟨2, ![784, 2048]⟩
abbrev S2048x10 : Shape := ⟨2, ![2048, 10]⟩
abbrev S16384x10 : Shape := ⟨2, ![16384, 10]⟩
abbrev S1x10 : Shape := ⟨2, ![1, 10]⟩

abbrev nBuf : Space → Nat
  | .hbm => 38
  | .vmem => 0
  | .smem => 0
  | _ => 0

abbrev bufTy : (tb : Table) → Fin (tcTables nBuf tb) → BufTy
  | .hbm, ⟨0, _⟩ => ⟨S16384x784, .f32⟩
  | .hbm, ⟨1, _⟩ => ⟨S2048x784, .f32⟩
  | .hbm, ⟨2, _⟩ => ⟨S2048, .f32⟩
  | .hbm, ⟨3, _⟩ => ⟨S10x2048, .f32⟩
  | .hbm, ⟨4, _⟩ => ⟨S10, .f32⟩
  | .hbm, ⟨5, _⟩ => ⟨S16384x784, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S2048x784, .f32⟩
  | .hbm, ⟨10, _⟩ => ⟨S_, .f32⟩
  | .hbm, ⟨11, _⟩ => ⟨S2048, .f32⟩
  | .hbm, ⟨12, _⟩ => ⟨S1x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S784x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S2048, .f32⟩
  | .hbm, ⟨27, _⟩ => ⟨S1x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S2048x10, .f32⟩
  | .hbm, ⟨34, _⟩ => ⟨S16384x10, .f32⟩
  | .hbm, ⟨35, _⟩ => ⟨S1x10, .f32⟩
  | .hbm, ⟨36, _⟩ => ⟨S16384x10, .f32⟩
  | .hbm, ⟨37, _⟩ => ⟨S16384x10, .f32⟩
  | _, _ => ⟨S16384x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  reducesTo_S16384x784_S16384_d1 : S16384x784.ReducesTo [1] S16384
  h_S_ : 0 < S_.numel
  bcast_S16384_S16384x1_0 : S16384.BroadcastsInDim S16384x1 (![0] : Fin 1 → Fin S16384x1.rank)
  reducesTo_S2048x784_S2048_d1 : S2048x784.ReducesTo [1] S2048
  bcast_S2048_S1x2048_1 : S2048.BroadcastsInDim S1x2048 (![1] : Fin 1 → Fin S1x2048.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  transposes_S2048x784_S784x2048_1_0 : S2048x784.Transposes [1, 0] S784x2048
  bcast_S_S16384x2048 : S_.BroadcastsInDim S16384x2048 (![] : Fin 0 → Fin S16384x2048.rank)
  transposes_S10x2048_S2048x10_1_0 : S10x2048.Transposes [1, 0] S2048x10
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  dot_S16384x784_S784x2048_S16384x2048_1_0_0_1_n_n_wf : DotDims.WF S16384x784 S784x2048 S16384x2048 [1] [0] [0] [1] [] []
  dot_S16384x2048_S2048x10_S16384x10_1_0_0_1_n_n_wf : DotDims.WF S16384x2048 S2048x10 S16384x10 [1] [0] [0] [1] [] []

variable [Facts₀]

def dot_S16384x784_S784x2048_S16384x2048_1_0_0_1_n_n : DotDims S16384x784 S784x2048 S16384x2048 where
  lhsContracting := [1]
  rhsContracting := [0]
  lhsNonContracting := [0]
  rhsNonContracting := [1]
  lhsBatch := []
  rhsBatch := []
  wf := dot_S16384x784_S784x2048_S16384x2048_1_0_0_1_n_n_wf
def dot_S16384x2048_S2048x10_S16384x10_1_0_0_1_n_n : DotDims S16384x2048 S2048x10 S16384x10 where
  lhsContracting := [1]
  rhsContracting := [0]
  lhsNonContracting := [0]
  rhsNonContracting := [1]
  lhsBatch := []
  rhsBatch := []
  wf := dot_S16384x2048_S2048x10_S16384x10_1_0_0_1_n_n_wf

class Facts : Prop extends Facts₀ where

variable [Facts]
-- ==== Proof.Spec.lean ====
/-
  The radial-basis classifier as ONE function of its five argument arrays, index by index, in the two
  arrangements the two programs compute.

  For a sample row `i` and a centre `k` write  sx = Σ_d x[i,d]²,  sc = Σ_d c[k,d]²,  dt = Σ_d x[i,d]·c[k,d]
  and `l` for the centre's log-width.  The squared distance is  sx + sc − 2·dt,  clipped below at zero.
  * The reference takes the root of the clipped squared distance, divides by the width `e^l`, squares the
    quotient, negates and exponentiates:            φ = exp (−(√(max (sx + sc − 2·dt) 0) / e^l)²).
  * The kernel multiplies by the inverse squared width `e^(−2l)` instead, and clips from above after the
    change of sign:                                  φ = exp (min (e^(−2l)·(2·dt − sx) − sc·e^(−2l)) 0).
  Either way the result at (i, o) is  Σ_k φ(i,k) · W[o,k] + b[o].

  The sums that a host reduction computes start from the written zero word, the kernel's lane sum and its
  matrix products do not; the definitions below keep that zero where each program has it, so that each
  program's array IS the function below, with no arithmetic in between.  The float words are kept as the
  words the programs spell.
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx

/-- The three float words the two programs spell: `0.0`, `2.0` and `-2.0`. -/
abbrev zeroW : EReal := Ideal.ofBits .f32 0x00000000#32
abbrev twoW : EReal := Ideal.ofBits .f32 0x40000000#32
abbrev negTwoW : EReal := Ideal.ofBits .f32 0xC0000000#32

/-- An array of extended reals with two axes, and with one. -/
abbrev Arr2 (a b : Nat) : Type := (⟨2, ![a, b]⟩ : Shape).Idx → EReal
abbrev Arr1 (a : Nat) : Type := (⟨1, ![a]⟩ : Shape).Idx → EReal

/-- The sum of the squares of row `i`. -/
def rowSq {n d : Nat} (x : Arr2 n d) (i : Fin n) : EReal := ∑ k : Fin d, x (ix2 i k) * x (ix2 i k)

/-- The inner product of row `i` of `x` with row `j` of `ce`. -/
def rowDot {n c d : Nat} (x : Arr2 n d) (ce : Arr2 c d) (i : Fin n) (j : Fin c) : EReal :=
  ∑ k : Fin d, x (ix2 i k) * ce (ix2 j k)

/-- The kernel's basis value, from the two squared norms, the inner product and the log-width. -/
def basisK (sx sc dt l : EReal) : EReal :=
  Ideal.exp (min (Ideal.exp (negTwoW * l) * (twoW * dt - sx) + -((zeroW + sc) * Ideal.exp (negTwoW * l))) zeroW)

/-- The reference's quotient: the root of the clipped squared distance over the width. -/
def quotR (sx sc dt l : EReal) : EReal :=
  Ideal.div (Ideal.sqrt (max ((zeroW + sx) + (zeroW + sc) - twoW * dt) zeroW)) (Ideal.exp l)

/-- The reference's basis value. -/
def basisR (sx sc dt l : EReal) : EReal := Ideal.exp (-(quotR sx sc dt l * quotR sx sc dt l))

/-- The classifier's output at sample `i` and class `o`, over a basis function `φ` of (sx, sc, dt, l). -/
def G (φ : EReal → EReal → EReal → EReal → EReal) (x : Arr2 16384 784) (ce : Arr2 2048 784) (ls : Arr1 2048)
    (W : Arr2 10 2048) (b : Arr1 10) (i : Fin 16384) (o : Fin 10) : EReal :=
  (∑ k : Fin 2048, φ (rowSq x i) (rowSq ce k) (rowDot x ce i k) (ls (ix1 k)) * W (ix2 o k)) + b (ix1 o)

/-- The same as a whole array. -/
def Garr (φ : EReal → EReal → EReal → EReal → EReal) (x : Arr2 16384 784) (ce : Arr2 2048 784) (ls : Arr1 2048)
    (W : Arr2 10 2048) (b : Arr1 10) : Arr2 16384 10 :=
  fun j => G φ x ce ls W b ⟨(j 0).val, (j 0).isLt⟩ ⟨(j 1).val, (j 1).isLt⟩

theorem Garr_ix2 (φ : EReal → EReal → EReal → EReal → EReal) (x : Arr2 16384 784) (ce : Arr2 2048 784) (ls : Arr1 2048)
    (W : Arr2 10 2048) (b : Arr1 10) (i : Fin 16384) (o : Fin 10) :
    Garr φ x ce ls W b (ix2 i o) = G φ x ce ls W b i o := rfl

/-- Every entry of an array is a real number. -/
def Real2 {a b : Nat} (x : Arr2 a b) : Prop := ∀ j, ∃ r : ℝ, x j = (r : EReal)
def Real1 {a : Nat} (x : Arr1 a) : Prop := ∀ j, ∃ r : ℝ, x j = (r : EReal)

end Cert.Rbf

end
-- ==== Proof.Algebra.lean ====
/-
  The two arrangements of the basis value agree on real numbers, and with them the two arrangements of the
  classifier agree on arrays of real numbers.
-/
import proofs.«124803_j23922967839460_2_alg».proof.Proof.Spec

noncomputable section

namespace Cert.Rbf

open Idealize.ShloMosaic Idealize.ShloMosaic.ValueIdx

/-! ### The three float words as real numbers -/

/-- The word of `0.0` denotes the real number `0`. -/
theorem zeroW_eq : zeroW = ((0 : ℝ) : EReal) := by
  show Ideal.ofBits .f32 0x00000000#32 = _
  rw [Ideal.ofBits_zero_f32, EReal.coe_zero]

/-- The word of `2.0` (sign 0, exponent 128, significand 0) denotes the real number `2`. -/
theorem twoW_eq : twoW = ((2 : ℝ) : EReal) := by
  show Ideal.ofBits .f32 0x40000000#32 = _
  simp [Ideal.ofBits, Ideal.ieee, -EReal.coe_mul]; norm_num

/-- The word of `-2.0` (sign 1, exponent 128, significand 0) denotes the real number `-2`. -/
theorem negTwoW_eq : negTwoW = ((-2 : ℝ) : EReal) := by
  show Ideal.ofBits .f32 0xC0000000#32 = _
  simp [Ideal.ofBits, Ideal.ieee, -EReal.coe_mul]; norm_num

/-! ### Maximum and minimum of real numbers inside the extended reals

The inclusion of the reals is monotone, so it commutes with `max` and `min`. -/

theorem coe_max' (a b : ℝ) : max (a : EReal) (b : EReal) = ((max a b : ℝ) : EReal) :=
  (EReal.coe_strictMono.monotone.map_max).symm

theorem coe_min' (a b : ℝ) : min (a : EReal) (b : EReal) = ((min a b : ℝ) : EReal) :=
  (EReal.coe_strictMono.monotone.map_min).symm

/-! ### Both basis values at real arguments are real expressions -/

/-- At real arguments every operation of the kernel's arrangement stays inside the reals. -/
theorem basisK_coe (sx sc dt l : ℝ) :
    basisK (sx : EReal) (sc : EReal) (dt : EReal) (l : EReal)
      = ((Real.exp (min (Real.exp (-2 * l) * (2 * dt - sx) + -((0 + sc) * Real.exp (-2 * l))) 0) : ℝ) : EReal) := by
  unfold basisK
  rw [zeroW_eq, twoW_eq, negTwoW_eq]
  simp only [← EReal.coe_mul, ← EReal.coe_add, ← EReal.coe_sub, ← EReal.coe_neg, coe_min', Ideal.exp_coe]

/-- At real arguments the reference's quotient is real: the clipped squared distance is not negative, so
    its root is the real root, and the width `e^l` is not zero, so the division is the product with `1 / e^l`. -/
theorem quotR_coe (sx sc dt l : ℝ) :
    quotR (sx : EReal) (sc : EReal) (dt : EReal) (l : EReal)
      = ((Real.sqrt (max (0 + sx + (0 + sc) - 2 * dt) 0) * (1 / Real.exp l) : ℝ) : EReal) := by
  unfold quotR
  rw [zeroW_eq, twoW_eq]
  simp only [← EReal.coe_mul, ← EReal.coe_add, ← EReal.coe_sub, coe_max', Ideal.exp_coe]
  rw [Ideal.sqrt_coe, if_neg (not_lt.mpr (le_max_right _ _)), Ideal.div_coe (Real.exp_ne_zero l), ← EReal.coe_mul]

/-- The identity between the two exponents, over the reals.  Write `a = 1 / e^l`, `p = a · a > 0` and
    `t = sx + sc − 2·dt`.  Then `e^(−2l) = p`; the kernel's exponent is `min (−(t · p)) 0`; the reference's is
    `−((√(max t 0) · a) · (√(max t 0) · a)) = −(max t 0 · p)`, because `√u · √u = u` for `u ≥ 0`.  For `t ≤ 0`
    both are `0`, and for `t ≥ 0` both are `−(t · p)`. -/
theorem real_core (sx sc dt l : ℝ) :
    min (Real.exp (-2 * l) * (2 * dt - sx) + -((0 + sc) * Real.exp (-2 * l))) 0
      = -(Real.sqrt (max (0 + sx + (0 + sc) - 2 * dt) 0) * (1 / Real.exp l)
          * (Real.sqrt (max (0 + sx + (0 + sc) - 2 * dt) 0) * (1 / Real.exp l))) := by
  have hp : Real.exp (-2 * l) = (1 / Real.exp l) * (1 / Real.exp l) := by
    rw [show (-2 : ℝ) * l = -l + -l by ring, Real.exp_add, Real.exp_neg, one_div]
  have hq : 0 < (1 / Real.exp l) * (1 / Real.exp l) := by positivity
  have hs : Real.sqrt (max (0 + sx + (0 + sc) - 2 * dt) 0) * (1 / Real.exp l)
        * (Real.sqrt (max (0 + sx + (0 + sc) - 2 * dt) 0) * (1 / Real.exp l))
      = max (0 + sx + (0 + sc) - 2 * dt) 0 * ((1 / Real.exp l) * (1 / Real.exp l)) := by
    rw [mul_mul_mul_comm, Real.mul_self_sqrt (le_max_right _ _)]
  have hl : (1 / Real.exp l) * (1 / Real.exp l) * (2 * dt - sx) + -((0 + sc) * ((1 / Real.exp l) * (1 / Real.exp l)))
      = -((0 + sx + (0 + sc) - 2 * dt) * ((1 / Real.exp l) * (1 / Real.exp l))) := by ring
  rw [hs, hp, hl]
  generalize (1 / Real.exp l) * (1 / Real.exp l) = p at hq
  generalize 0 + sx + (0 + sc) - 2 * dt = t
  rcases le_total t 0 with h | h
  · rw [max_eq_right h, zero_mul, neg_zero, min_eq_right]
    have := mul_nonneg (neg_nonneg.mpr h) hq.le
    linarith
  · rw [max_eq_left h, min_eq_left]
    have := mul_nonneg h hq.le
    linarith

/-- On real arguments the kernel's basis value is the reference's. -/
theorem basis_eq (sx sc dt l : ℝ) : basisK (sx : EReal) (sc : EReal) (dt : EReal) (l : EReal) = basisR (sx : EReal) (sc : EReal) (dt : EReal) (l : EReal) := by
  rw [basisK_coe, basisR, quotR_coe, ← EReal.coe_mul, ← EReal.coe_neg, Ideal.exp_coe, real_core]

/-- A finite sum of extended reals each of which is a real number is a real number (induction on the index
    set: the empty sum is `0`, and a real plus a real is a real). -/
theorem sum_real {ι : Type} (s : Finset ι) (f : ι → EReal) :
    (∀ k ∈ s, ∃ r : ℝ, f k = (r : EReal)) → ∃ r : ℝ, ∑ k ∈ s, f k = (r : EReal) := by
  classical
  refine Finset.induction_on s (fun _ => ⟨0, by rw [Finset.sum_empty, EReal.coe_zero]⟩) ?_
  intro a s ha ih hf
  obtain ⟨r, hr⟩ := ih (fun k hk => hf k (Finset.mem_insert_of_mem hk))
  obtain ⟨q, hq⟩ := hf a (Finset.mem_insert_self a s)
  exact ⟨q + r, by rw [Finset.sum_insert ha, hr, hq, EReal.coe_add]⟩

/-- A row's sum of squares of real entries is real. -/
theorem rowSq_real {n d : Nat} (x : Arr2 n d) (hx : Real2 x) (i : Fin n) : ∃ r : ℝ, rowSq x i = (r : EReal) := by
  unfold rowSq
  refine sum_real _ _ (fun k _ => ?_)
  obtain ⟨r, hr⟩ := hx (ix2 i k)
  exact ⟨r * r, by rw [hr, EReal.coe_mul]⟩

/-- An inner product of rows of real entries is real. -/
theorem rowDot_real {n c d : Nat} (x : Arr2 n d) (ce : Arr2 c d) (hx : Real2 x) (hce : Real2 ce) (i : Fin n) (j : Fin c) :
    ∃ r : ℝ, rowDot x ce i j = (r : EReal) := by
  unfold rowDot
  refine sum_real _ _ (fun k _ => ?_)
  obtain ⟨r, hr⟩ := hx (ix2 i k)
  obtain ⟨q, hq⟩ := hce (ix2 j k)
  exact ⟨r * q, by rw [hr, hq, EReal.coe_mul]⟩

/-- At one sample and one class: the two sums agree term by term, since the two squared norms, the inner
    product and the log-width are real numbers and the two basis values agree on real numbers. -/
theorem G_basis_eq (x : Arr2 16384 784) (ce : Arr2 2048 784) (ls : Arr1 2048) (W : Arr2 10 2048) (b : Arr1 10)
    (hx : Real2 x) (hce : Real2 ce) (hls : Real1 ls) (i : Fin 16384) (o : Fin 10) :
    G basisK x ce ls W b i o = G basisR x ce ls W b i o := by
  unfold G
  refine congrArg (fun s => s + b (ix1 o)) (Finset.sum_congr rfl (fun k _ => ?_))
  obtain ⟨sx, hsx⟩ := rowSq_real x hx i
  obtain ⟨sc, hsc⟩ := rowSq_real ce hce k
  obtain ⟨dt, hdt⟩ := rowDot_real x ce hx hce i k
  obtain ⟨l, hl⟩ := hls (ix1 k)
  rw [hsx, hsc, hdt, hl, basis_eq]

/-- On real samples, centres and log-widths the two arrangements of the classifier are one array. -/
theorem Garr_basis_eq (x : Arr2 16384 784) (ce : Arr2 2048 784) (ls : Arr1 2048) (W : Arr2 10 2048) (b : Arr1 10)
    (hx : Real2 x) (hce : Real2 ce) (hls : Real1 ls) :
    Garr basisK x ce ls W b = Garr basisR x ce ls W b := by
  funext j
  exact G_basis_eq x ce ls W b hx hce hls _ _

end Cert.Rbf

end
-- ==== Proof.RefSpec.lean ====
/-
  The reference's result, read one operation at a time, is the classifier in the reference's arrangement.
-/
import proofs.«124803_j23922967839460_2_alg».proof.Proof.Spec
import proofs.«124803_j23922967839460_2_alg».proof.Proof.Gen.ReferenceIdeal.Read

noncomputable section

namespace Cert.Rbf.Ref

open Idealize.ShloMosaic Idealize.ShloMosaic.ValueIdx Cert.Rbf

open Cert.ReferenceIdeal Cert.ReferenceIdeal.Read in
/-- The host's row sum of squares of the samples: the zero word plus the sum of the squares of row `i`. -/
theorem sqX_at (x0 : Arr2 16384 784) (i : Fin 16384) :
    val_main_v1 (F := Ideal) x0 (ix1 i) = zeroW + rowSq x0 i := by
  rw [val_main_v1_apply, val_main_cst_apply]
  refine congrArg (_ + ·) (Finset.sum_congr rfl fun d _ => ?_)
  rw [val_main_v0_apply]
  have e : idx_main_v1 (ix1 i) d = ix2 i d :=
    funext fun a => Fin.ext (by match a with | ⟨0, _⟩ => rfl | ⟨1, _⟩ => rfl)
  rw [e]; rfl

open Cert.ReferenceIdeal Cert.ReferenceIdeal.Read in
/-- The host's row sum of squares of the centres: the zero word plus the sum of the squares of row `k`. -/
theorem sqC_at (x1 : Arr2 2048 784) (k : Fin 2048) :
    val_main_v4 (F := Ideal) x1 (ix1 k) = zeroW + rowSq x1 k := by
  rw [val_main_v4_apply, val_main_cst_0_apply]
  refine congrArg (_ + ·) (Finset.sum_congr rfl fun d _ => ?_)
  rw [val_main_v3_apply]
  have e : idx_main_v4 (ix1 k) d = ix2 k d :=
    funext fun a => Fin.ext (by match a with | ⟨0, _⟩ => rfl | ⟨1, _⟩ => rfl)
  rw [e]; rfl

open Cert.ReferenceIdeal Cert.ReferenceIdeal.Read in
/-- The product of the samples with the transposed centres at `(i, k)` is the inner product of row `i` with row `k`. -/
theorem dot_at (x0 : Arr2 16384 784) (x1 : Arr2 2048 784) (i : Fin 16384) (k : Fin 2048) :
    val_main_v10 (F := Ideal) x0 x1 (ix2 i k) = rowDot x0 x1 i k := by
  rw [val_main_v10_apply]
  refine Finset.sum_congr rfl fun d _ => ?_
  rw [val_main_v9_apply]
  have el : lidx_main_v10 (ix2 i k) d = ix2 i d :=
    funext fun a => Fin.ext (by match a with | ⟨0, _⟩ => rfl | ⟨1, _⟩ => rfl)
  have er : idx_main_v9 (ridx_main_v10 (ix2 i k) d) = ix2 k d :=
    funext fun a => Fin.ext (by match a with | ⟨0, _⟩ => rfl | ⟨1, _⟩ => rfl)
  rw [el, er]

open Cert.ReferenceIdeal Cert.ReferenceIdeal.Read in
/-- The clipped squared distance at `(i, k)`: the two squared norms added, less twice the inner product, clipped
    below at the zero word. -/
theorem clip_at (x0 : Arr2 16384 784) (x1 : Arr2 2048 784) (i : Fin 16384) (k : Fin 2048) :
    val_main_v15 (F := Ideal) x0 x1 (ix2 i k)
      = max ((zeroW + rowSq x0 i) + (zeroW + rowSq x1 k) - twoW * rowDot x0 x1 i k) zeroW := by
  rw [val_main_v15_apply, val_main_v13_apply, val_main_v8_apply, val_main_v6_apply, val_main_v2_apply,
    val_main_v7_apply, val_main_v5_apply, val_main_v12_apply, val_main_v11_apply, val_main_cst_1_apply,
    val_main_v14_apply, val_main_cst_2_apply, dot_at]
  have ex : idx_main_v2 (idx_main_v6 (ix2 i k)) = ix1 i :=
    funext fun a => Fin.ext (by match a with | ⟨0, _⟩ => rfl)
  have ec : idx_main_v5 (idx_main_v7 (ix2 i k)) = ix1 k :=
    funext fun a => Fin.ext (by match a with | ⟨0, _⟩ => rfl)
  rw [ex, ec, sqX_at, sqC_at]
  rfl

open Cert.ReferenceIdeal Cert.ReferenceIdeal.Read in
/-- The quotient at `(i, k)`: the root of the clipped squared distance over the width of centre `k`. -/
theorem quot_at (x0 : Arr2 16384 784) (x1 : Arr2 2048 784) (x2 : Arr1 2048) (i : Fin 16384) (k : Fin 2048) :
    val_main_v20 (F := Ideal) x0 x1 x2 (ix2 i k)
      = quotR (rowSq x0 i) (rowSq x1 k) (rowDot x0 x1 i k) (x2 (ix1 k)) := by
  rw [val_main_v20_apply, val_main_v16_apply, val_main_v19_apply, val_main_v18_apply, val_main_v17_apply, clip_at]
  have ew : idx_main_v18 (idx_main_v19 (ix2 i k)) = ix1 k :=
    funext fun a => Fin.ext (by match a with | ⟨0, _⟩ => rfl)
  rw [ew]
  rfl

open Cert.ReferenceIdeal Cert.ReferenceIdeal.Read in
/-- The basis value at `(i, k)`: the exponential of minus the squared quotient. -/
theorem basis_at (x0 : Arr2 16384 784) (x1 : Arr2 2048 784) (x2 : Arr1 2048) (i : Fin 16384) (k : Fin 2048) :
    val_main_v23 (F := Ideal) x0 x1 x2 (ix2 i k)
      = basisR (rowSq x0 i) (rowSq x1 k) (rowDot x0 x1 i k) (x2 (ix1 k)) := by
  rw [val_main_v23_apply, val_main_v22_apply, val_main_v21_apply, quot_at]
  rfl

open Cert.ReferenceIdeal Cert.ReferenceIdeal.Read in
/-- The reference's last stage, as a whole array, is `Garr basisR` of its five arguments. -/
theorem ref_eq (x0 : Arr2 16384 784) (x1 : Arr2 2048 784) (x2 : Arr1 2048) (x3 : Arr2 10 2048) (x4 : Arr1 10) :
    Cert.ReferenceIdeal.Read.val_main_v28 (F := Ideal) x0 x1 x2 x3 x4 = Garr basisR x0 x1 x2 x3 x4 := by
  funext j
  obtain ⟨i, o, rfl⟩ : ∃ (i : Fin 16384) (o : Fin 10), j = ix2 i o := ⟨j 0, j 1, eq_ix2 j⟩
  rw [Garr_ix2, val_main_v28_apply, val_main_v25_apply, val_main_v27_apply, val_main_v26_apply]
  have eb : idx_main_v26 (idx_main_v27 (ix2 i o)) = ix1 o :=
    funext fun a => Fin.ext (by match a with | ⟨0, _⟩ => rfl)
  rw [eb]
  unfold G
  refine congrArg (· + _) (Finset.sum_congr rfl fun k _ => ?_)
  rw [val_main_v24_apply]
  have el : lidx_main_v25 (ix2 i o) k = ix2 i k :=
    funext fun a => Fin.ext (by match a with | ⟨0, _⟩ => rfl | ⟨1, _⟩ => rfl)
  have er : idx_main_v24 (ridx_main_v25 (ix2 i o) k) = ix2 o k :=
    funext fun a => Fin.ext (by match a with | ⟨0, _⟩ => rfl | ⟨1, _⟩ => rfl)
  rw [el, er, basis_at]

end Cert.Rbf.Ref

end
-- ==== Proof.Finite.lean ====
/-
  From the stated precondition — every float input compares below +inf in absolute value — to: every entry of
  the samples, the centres and the log-widths is a real number.
-/
import proofs.«124803_j23922967839460_2_alg».proof.Proof.Spec
import proofs.«124803_j23922967839460_2_alg».proof.Defs
import Idealize.ShloMosaic.Lib.ReduceAll

noncomputable section

namespace Cert.Rbf.Fin

open Idealize.ShloMosaic Idealize.ShloMosaic.ValueIdx Idealize.SL.Sem Cert.Rbf

/-- The shape with no axes has exactly one index. -/
instance : Subsingleton Cert.Pre_finite_inputs.S_.Idx := ⟨fun a b => funext fun d => d.elim0⟩

/-- The word `0x7F800000` denotes +inf. -/
theorem infW : Ideal.ofBits .f32 0x7F800000#32 = (⊤ : EReal) := by simp [Ideal.ofBits, Ideal.ieee]

/-- An extended real whose absolute value `max x (−x)` compares strictly below +inf is a real number:
    at `⊥` and at `⊤` the maximum is `⊤`, which is not below itself. -/
theorem real_of_abs_lt (x : EReal) (h : Ideal.cmp .olt (max x (-x)) (Ideal.ofBits .f32 0x7F800000#32) = 1#1) :
    ∃ r : ℝ, x = (r : EReal) := by
  rw [infW] at h
  induction x using EReal.rec with
  | bot => simp [Ideal.cmp] at h
  | coe r => exact ⟨r, rfl⟩
  | top => simp [Ideal.cmp] at h

/-- One array: if the conjunction over all its entries of `|x| < +inf` is the word 1, every entry is real.
    The conjunction is a reduction by `and` over all axes from the word 1; it is 1 only if every entry's
    comparison is 1, and the comparison at an entry is the scalar one above. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1)
    (i : s.Idx) : ∃ r : ℝ, x i = (r : EReal) :=
  real_of_abs_lt (x i) (Host.reduce_andi_all _ _ hr hu ix0 e i)

/-- Under the precondition the first three argument arrays hold real numbers, on every core. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Real2 (a := 16384) (b := 784) (m ((c.tc : Thread Cert.KernelIdeal.nD Cert.KernelIdeal.τ).loc Cert.KernelIdeal.main_arg0))
    ∧ Real2 (a := 2048) (b := 784) (m ((c.tc : Thread Cert.KernelIdeal.nD Cert.KernelIdeal.τ).loc Cert.KernelIdeal.main_arg1))
    ∧ Real1 (a := 2048) (m ((c.tc : Thread Cert.KernelIdeal.nD Cert.KernelIdeal.τ).loc Cert.KernelIdeal.main_arg2)) := by
  -- the precondition read at the one index of its result is a five-fold conjunction, nested to the left,
  -- of one reduction per argument array; the first three conjuncts are the three arrays asked for
  have h0 := congrFun (h c) ix0
  dsimp only [Cert.Pre_finite_inputs.fn, Cert.Pre_finite_inputs.fn_part1] at h0
  obtain ⟨h1234, _⟩ := IntOp.andi_eq_one.1 h0
  obtain ⟨h123, _⟩ := IntOp.andi_eq_one.1 h1234
  obtain ⟨h12, e2⟩ := IntOp.andi_eq_one.1 h123
  obtain ⟨e0, e1⟩ := IntOp.andi_eq_one.1 h12
  exact ⟨fun j => real_of_all _ _ _ _ e0 j, fun j => real_of_all _ _ _ _ e1 j, fun j => real_of_all _ _ _ _ e2 j⟩

end Cert.Rbf.Fin

end
-- ==== Proof.Payload.lean ====
/-
  The kernel body's one stored value, read at row `r` and class `o` of its block, as sums over the loaded blocks.
-/
import proofs.«124803_j23922967839460_2_alg».proof.Proof.Spec
import proofs.«124803_j23922967839460_2_alg».proof.Proof.Gen.KernelIdeal.Skeleton
import Idealize.ShloMosaic.Lib.ValueLayout

noncomputable section

namespace Cert.Rbf.Body

open Idealize.ShloMosaic Idealize.ShloMosaic.ValueIdx Cert.Rbf Cert.KernelIdeal Cert.KernelIdeal.Gen

/-! ## The keepdims column forms of the layout operations, read at an index -/

/-- A vector `[a]` cast to a column `[a, 1]` reads, at `(i, u)`, the operand at `i`: both indices sit at the
    row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`: the unit axis reads `0`,
    the other axis its own coordinate. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The lane sum read at an index -/

/-- The sum along the second axis of a `[a, b]` array into `[a]`, started from the zero word, reads at `r` the sum
    over `k` of the source at `(r, k)`: the reduced index with the coordinate `k` put back on axis 1 is `(r, k)`. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src (funext fun ax => Fin.ext ?_)
  match ax with
  | ⟨0, _⟩ => rfl
  | ⟨1, _⟩ => rfl

/-! ## The two matrix products read at an index

Each product contracts the left operand's second axis with the right operand's first, into the zero splat: at `(p, c)`
it is the sum over the contracted coordinate `k` of left `(p, k)` times right `(k, c)`. The contraction's index set has
one axis, so the sum over it is re-indexed by that axis's coordinate. -/

/-- On the left operand's row axis the operand index is the output's row … -/
theorem dotXC_lhs0 (i : S1024x2048.Idx) (q : dot_S1024x784_S784x2048_S1024x2048_1_0_0_1_n_n.contr.Idx) :
    (dot_S1024x784_S784x2048_S1024x2048_1_0_0_1_n_n.lhsIdx i q 0).val = (i 0).val := by
  unfold DotDims.lhsIdx
  rw [dif_neg (show ¬(0 : Fin S1024x784.rank) ∈ dot_S1024x784_S784x2048_S1024x2048_1_0_0_1_n_n.lhsBatch by decide),
    dif_pos (show (0 : Fin S1024x784.rank) ∈ dot_S1024x784_S784x2048_S1024x2048_1_0_0_1_n_n.lhsNonContracting by decide)]
  rfl
/-- … on its contracted axis the contraction position's one coordinate; -/
theorem dotXC_lhs1 (i : S1024x2048.Idx) (q : dot_S1024x784_S784x2048_S1024x2048_1_0_0_1_n_n.contr.Idx) :
    (dot_S1024x784_S784x2048_S1024x2048_1_0_0_1_n_n.lhsIdx i q 1).val = (q ⟨0, by decide⟩).val :=
  dot_S1024x784_S784x2048_S1024x2048_1_0_0_1_n_n.lhsIdx_val_of_single rfl i q
/-- the right operand's contracted axis reads the same coordinate … -/
theorem dotXC_rhs0 (i : S1024x2048.Idx) (q : dot_S1024x784_S784x2048_S1024x2048_1_0_0_1_n_n.contr.Idx) :
    (dot_S1024x784_S784x2048_S1024x2048_1_0_0_1_n_n.rhsIdx i q 0).val = (q ⟨0, by decide⟩).val :=
  dot_S1024x784_S784x2048_S1024x2048_1_0_0_1_n_n.rhsIdx_val_of_single rfl i q
/-- … and its column axis the output's column. -/
theorem dotXC_rhs1 (i : S1024x2048.Idx) (q : dot_S1024x784_S784x2048_S1024x2048_1_0_0_1_n_n.contr.Idx) :
    (dot_S1024x784_S784x2048_S1024x2048_1_0_0_1_n_n.rhsIdx i q 1).val = (i 1).val := by
  unfold DotDims.rhsIdx
  rw [dif_neg (show ¬(1 : Fin S784x2048.rank) ∈ dot_S1024x784_S784x2048_S1024x2048_1_0_0_1_n_n.rhsBatch by decide),
    dif_pos (show (1 : Fin S784x2048.rank) ∈ dot_S1024x784_S784x2048_S1024x2048_1_0_0_1_n_n.rhsNonContracting by decide)]
  rfl

/-- The samples-by-centres product at `(p, c)`: the sum over the 784 features. -/
theorem dotXC_apply (L : FVec Ideal S1024x784 .bf16) (R : FVec Ideal S784x2048 .bf16) (p : Fin 1024) (c : Fin 2048) :
    matmul dot_S1024x784_S784x2048_S1024x2048_1_0_0_1_n_n none L R (constant (F := Ideal) S1024x2048 .f32 0x00000000#32) (ix2 p c)
      = ∑ k : Fin 784, L (ix2 p k) * R (ix2 k c) := by
  refine (Ideal.matmul_constant_zero_apply dot_S1024x784_S784x2048_S1024x2048_1_0_0_1_n_n none L R (ix2 p c)).trans ?_
  rw [← Equiv.sum_comp (contrEquiv1 dot_S1024x784_S784x2048_S1024x2048_1_0_0_1_n_n 784 rfl rfl).symm]
  refine Finset.sum_congr rfl fun k _ => ?_
  have hk := contrEquiv1_symm_val dot_S1024x784_S784x2048_S1024x2048_1_0_0_1_n_n 784 rfl rfl k
  have el : dot_S1024x784_S784x2048_S1024x2048_1_0_0_1_n_n.lhsIdx (ix2 p c) ((contrEquiv1 dot_S1024x784_S784x2048_S1024x2048_1_0_0_1_n_n 784 rfl rfl).symm k) = ix2 p k :=
    funext fun a => Fin.ext (by
      match a with
      | ⟨0, _⟩ => exact dotXC_lhs0 _ _
      | ⟨1, _⟩ => exact (dotXC_lhs1 _ _).trans hk)
  have er : dot_S1024x784_S784x2048_S1024x2048_1_0_0_1_n_n.rhsIdx (ix2 p c) ((contrEquiv1 dot_S1024x784_S784x2048_S1024x2048_1_0_0_1_n_n 784 rfl rfl).symm k) = ix2 k c :=
    funext fun a => Fin.ext (by
      match a with
      | ⟨0, _⟩ => exact (dotXC_rhs0 _ _).trans hk
      | ⟨1, _⟩ => exact dotXC_rhs1 _ _)
  rw [el, er]

/-- On the left operand's row axis the operand index is the output's row … -/
theorem dotPW_lhs0 (i : S1024x10.Idx) (q : dot_S1024x2048_S2048x10_S1024x10_1_0_0_1_n_n.contr.Idx) :
    (dot_S1024x2048_S2048x10_S1024x10_1_0_0_1_n_n.lhsIdx i q 0).val = (i 0).val := by
  unfold DotDims.lhsIdx
  rw [dif_neg (show ¬(0 : Fin S1024x2048.rank) ∈ dot_S1024x2048_S2048x10_S1024x10_1_0_0_1_n_n.lhsBatch by decide),
    dif_pos (show (0 : Fin S1024x2048.rank) ∈ dot_S1024x2048_S2048x10_S1024x10_1_0_0_1_n_n.lhsNonContracting by decide)]
  rfl
/-- … on its contracted axis the contraction position's one coordinate; -/
theorem dotPW_lhs1 (i : S1024x10.Idx) (q : dot_S1024x2048_S2048x10_S1024x10_1_0_0_1_n_n.contr.Idx) :
    (dot_S1024x2048_S2048x10_S1024x10_1_0_0_1_n_n.lhsIdx i q 1).val = (q ⟨0, by decide⟩).val :=
  dot_S1024x2048_S2048x10_S1024x10_1_0_0_1_n_n.lhsIdx_val_of_single rfl i q
/-- the right operand's contracted axis reads the same coordinate … -/
theorem dotPW_rhs0 (i : S1024x10.Idx) (q : dot_S1024x2048_S2048x10_S1024x10_1_0_0_1_n_n.contr.Idx) :
    (dot_S1024x2048_S2048x10_S1024x10_1_0_0_1_n_n.rhsIdx i q 0).val = (q ⟨0, by decide⟩).val :=
  dot_S1024x2048_S2048x10_S1024x10_1_0_0_1_n_n.rhsIdx_val_of_single rfl i q
/-- … and its column axis the output's column. -/
theorem dotPW_rhs1 (i : S1024x10.Idx) (q : dot_S1024x2048_S2048x10_S1024x10_1_0_0_1_n_n.contr.Idx) :
    (dot_S1024x2048_S2048x10_S1024x10_1_0_0_1_n_n.rhsIdx i q 1).val = (i 1).val := by
  unfold DotDims.rhsIdx
  rw [dif_neg (show ¬(1 : Fin S2048x10.rank) ∈ dot_S1024x2048_S2048x10_S1024x10_1_0_0_1_n_n.rhsBatch by decide),
    dif_pos (show (1 : Fin S2048x10.rank) ∈ dot_S1024x2048_S2048x10_S1024x10_1_0_0_1_n_n.rhsNonContracting by decide)]
  rfl

/-- The basis-by-weights product at `(p, c)`: the sum over the 2048 centres. -/
theorem dotPW_apply (L : FVec Ideal S1024x2048 .bf16) (R : FVec Ideal S2048x10 .bf16) (p : Fin 1024) (c : Fin 10) :
    matmul dot_S1024x2048_S2048x10_S1024x10_1_0_0_1_n_n none L R (constant (F := Ideal) S1024x10 .f32 0x00000000#32) (ix2 p c)
      = ∑ k : Fin 2048, L (ix2 p k) * R (ix2 k c) := by
  refine (Ideal.matmul_constant_zero_apply dot_S1024x2048_S2048x10_S1024x10_1_0_0_1_n_n none L R (ix2 p c)).trans ?_
  rw [← Equiv.sum_comp (contrEquiv1 dot_S1024x2048_S2048x10_S1024x10_1_0_0_1_n_n 2048 rfl rfl).symm]
  refine Finset.sum_congr rfl fun k _ => ?_
  have hk := contrEquiv1_symm_val dot_S1024x2048_S2048x10_S1024x10_1_0_0_1_n_n 2048 rfl rfl k
  have el : dot_S1024x2048_S2048x10_S1024x10_1_0_0_1_n_n.lhsIdx (ix2 p c) ((contrEquiv1 dot_S1024x2048_S2048x10_S1024x10_1_0_0_1_n_n 2048 rfl rfl).symm k) = ix2 p k :=
    funext fun a => Fin.ext (by
      match a with
      | ⟨0, _⟩ => exact dotPW_lhs0 _ _
      | ⟨1, _⟩ => exact (dotPW_lhs1 _ _).trans hk)
  have er : dot_S1024x2048_S2048x10_S1024x10_1_0_0_1_n_n.rhsIdx (ix2 p c) ((contrEquiv1 dot_S1024x2048_S2048x10_S1024x10_1_0_0_1_n_n 2048 rfl rfl).symm k) = ix2 k c :=
    funext fun a => Fin.ext (by
      match a with
      | ⟨0, _⟩ => exact (dotPW_rhs0 _ _).trans hk
      | ⟨1, _⟩ => exact dotPW_rhs1 _ _)
  rw [el, er]

/-! ## The body's intermediate values at an index -/

/-- The row's squared norm, kept as a column and spread over the centres: at `(r, k)` the sum over the features `d` of
    the square of the sample's entry `(r, d)`, whatever the centre `k`. -/
theorem sqNorm_apply (v0 : FVec Ideal S1024x784 .f32) (hred : S1024x784.Reduces [1] S1024) (hφ : FKind.Formats .f32)
    (hacc : (0x00000000#32 : BitVec 32) = FKind.add.neutral .f32 hφ) (hsc : S1024.ShapeCasts S1024x1)
    (hb : S1024x1.Broadcasts S1024x2048) (r : Fin 1024) (k : Fin 2048) :
    broadcastTo S1024x2048
        (shapeCast S1024x1 (multiReduction .add [1] S1024 (mulf v0 v0) 0x00000000#32 hred hφ hacc) hsc) hb (ix2 r k)
      = ∑ d : Fin 784, v0 (ix2 r d) * v0 (ix2 r d) :=
  (broadcastTo_a1_ab_apply _ hb r k).trans
    ((shapeCast_a_a1_apply _ hsc r 0).trans (rowSum_apply (mulf v0 v0) hred hφ hacc r))

/-- The inner products of the samples with the centres: at `(r, k)` the sum over the features `d` of the sample's entry
    `(r, d)` times the transposed centres' entry `(d, k)`. The change of format of the left operand and the cast of the
    right operand to its own shape are the identity. -/
theorem inner_apply (v0 : FVec Ideal S1024x784 .f32) (v5 : FVec Ideal S784x2048 .bf16) (hlt : FTy.bits .bf16 < FTy.bits .f32)
    (hs : S784x2048.ShapeCasts S784x2048) (r : Fin 1024) (k : Fin 2048) :
    matmul dot_S1024x784_S784x2048_S1024x2048_1_0_0_1_n_n none (truncf .bf16 v0 hlt) (shapeCast S784x2048 v5 hs)
        (constant (F := Ideal) S1024x2048 .f32 0x00000000#32) (ix2 r k)
      = ∑ d : Fin 784, v0 (ix2 r d) * v5 (ix2 d k) :=
  (dotXC_apply (truncf .bf16 v0 hlt) (shapeCast S784x2048 v5 hs) r k).trans
    (Finset.sum_congr rfl fun d _ => congrArg (v0 (ix2 r d) * ·) (congrFun (shapeCast_self v5 hs) (ix2 d k)))

/-- The basis value at `(r, k)` from the inner products `D` and the squared norms `X`, whose entries at `(r, k)` are
    `dv` and `xv`: the exponential of the affine form `w k · (2 · dv − xv) + t k` clipped above at zero, where `w` and
    `t` are the two rows spread over the samples. Every operation but the two row broadcasts acts entry by entry. -/
theorem basis_apply (D X : FVec Ideal S1024x2048 .f32) (v8 v16 : FVec Ideal S1x2048 .f32)
    (hs : S1x2048.ShapeCasts S1x2048) (hb : S1x2048.Broadcasts S1024x2048) (r : Fin 1024) (k : Fin 2048)
    (dv xv : EReal) (hD : D (ix2 r k) = dv) (hX : X (ix2 r k) = xv) :
    exp (minimumf (addf (mulf (broadcastTo S1024x2048 (shapeCast S1x2048 v8 hs) hb)
            (subf (mulf (broadcast S1024x2048 (Scalar.ofBits (F := Ideal) .f32 0x40000000#32)) D) X))
          (broadcastTo S1024x2048 (shapeCast S1x2048 v16 hs) hb))
        (broadcast S1024x2048 (Scalar.ofBits (F := Ideal) .f32 0x00000000#32))) (ix2 r k)
      = Ideal.exp (min (v8 (ix2 (0 : Fin 1) k) * (twoW * dv - xv) + v16 (ix2 (0 : Fin 1) k)) zeroW) := by
  subst hD hX
  have e8 : broadcastTo S1024x2048 (shapeCast S1x2048 v8 hs) hb (ix2 r k) = v8 (ix2 (0 : Fin 1) k) :=
    (broadcastTo_1b_ab_apply _ hb r k).trans (congrFun (shapeCast_self v8 hs) _)
  have e16 : broadcastTo S1024x2048 (shapeCast S1x2048 v16 hs) hb (ix2 r k) = v16 (ix2 (0 : Fin 1) k) :=
    (broadcastTo_1b_ab_apply _ hb r k).trans (congrFun (shapeCast_self v16 hs) _)
  show Ideal.exp (min (broadcastTo S1024x2048 (shapeCast S1x2048 v8 hs) hb (ix2 r k)
      * (twoW * D (ix2 r k) - X (ix2 r k)) + broadcastTo S1024x2048 (shapeCast S1x2048 v16 hs) hb (ix2 r k)) zeroW) = _
  rw [e8, e16]

/-- The stored value at (r, o): over the centres `k`, the exponential of the clipped affine form of the
    row's inner product with centre `k` and the row's squared norm, times the weight, plus the bias. -/
theorem pay_apply (v0 : Vec Ideal S1024x784 .f32) (v5 : Vec Ideal S784x2048 .bf16) (v8 : Vec Ideal S1x2048 .f32)
    (v16 : Vec Ideal S1x2048 .f32) (v24 : Vec Ideal S2048x10 .bf16) (v27 : Vec Ideal S1x10 .f32) (r : Fin 1024) (o : Fin 10) :
    k0_pay1 (F := Ideal) v0 v5 v8 v16 v24 v27 (ix2 r o)
      = (∑ k : Fin 2048, Ideal.exp (min (v8 (ix2 (0 : Fin 1) k)
            * (twoW * (∑ d : Fin 784, v0 (ix2 r d) * v5 (ix2 d k)) - ∑ d : Fin 784, v0 (ix2 r d) * v0 (ix2 r d))
            + v16 (ix2 (0 : Fin 1) k)) zeroW) * v24 (ix2 k o))
        + v27 (ix2 (0 : Fin 1) o) := by
  unfold k0_pay1
  refine (addf_apply _ _ (ix2 r o)).trans ?_
  refine congrArg₂ (· + ·) ?_ ?_
  · -- the second product: over the centres, the basis value times the weight
    refine (dotPW_apply _ _ r o).trans ?_
    refine Finset.sum_congr rfl fun k _ => ?_
    refine congrArg₂ (· * ·) ?_ (congrFun (shapeCast_self v24 _) (ix2 k o))
    exact basis_apply _ _ v8 v16 _ _ r k _ _ (inner_apply v0 v5 _ _ r k) (sqNorm_apply v0 _ _ _ _ _ r k)
  · -- the bias row spread over the samples
    exact (broadcastTo_1b_ab_apply _ _ r o).trans (congrFun (shapeCast_self v27 _) _)

end Cert.Rbf.Body

end
-- ==== Proof.HostPrefix.lean ====
/-
  What the region finds in the five arrays that host operations write before it: the transposed centres,
  the inverse squared widths, the centres' term, the transposed weights and the bias row, each at an index.
-/
import proofs.«124803_j23922967839460_2_alg».proof.Proof.Spec
import proofs.«124803_j23922967839460_2_alg».proof.Proof.Gen.KernelIdeal.Frame
import Idealize.ShloMosaic.Lib.Pipeline.Value

noncomputable section

namespace Cert.Rbf.Host

open Idealize.ShloMosaic Idealize.ShloMosaic.ValueIdx Idealize.ShloMosaic.TcCoe Idealize.SL.Sem Cert.Rbf Cert.KernelIdeal Cert.KernelIdeal.Gen

/-! ## The host operations' terms over variable arrays, read at an index -/

/-- The host's float sum over the second axis of a [2048, 784] array, read at row `k`: the initial value plus the
    sum of the row's entries. -/
theorem hostSum_read (y0 : FVec Ideal S2048x784 .f32) (v : FVec Ideal S_ .f32) (k : Fin 2048) :
    (Host.reduceAdd (F := Ideal) y0 v reducesTo_S2048x784_S2048_d1 h_S_ : S2048.Idx → EReal) (ix1 k)
      = v (Shape.Idx.first h_S_) + ∑ d : Fin 784, y0 (ix2 k d) := by
  simp only [Host.reduceAdd, Ideal.hostReduceAdd_def]
  rw [Ideal.hostReduceAdd_single reducesTo_S2048x784_S2048_d1 (by decide)]
  refine congrArg (_ + ·) (Finset.sum_congr rfl fun d _ => ?_)
  exact congrArg y0 (funext fun a => Fin.ext (by match a with | ⟨0, _⟩ => rfl | ⟨1, _⟩ => rfl))

/-- A [2048] array laid out as a [1, 2048] row reads, at column `k`, its entry `k`. -/
theorem row2048_read {α : Type} (y : S2048.Idx → α) (k : Fin 2048) :
    broadcastInDim S1x2048 ![1] bcast_S2048_S1x2048_1 y (ix2 (0 : Fin 1) k) = y (ix1 k) :=
  broadcastInDim_apply _ bcast_S2048_S1x2048_1 y (ix2 (0 : Fin 1) k) (ix1 k) (fun a => match a with
    | ⟨0, _⟩ => by show k.val = if (2048 : Nat) = 1 then 0 else k.val; rw [if_neg (by decide)])

/-- The inverse squared widths as the host operations compute them from the log-widths `a2`, read at column `k`:
    the broadcast word `-2.0` times the log-width, exponentiated. -/
theorem invSig2_read (a2 : FVec Ideal S2048 .f32) (k : Fin 2048) :
    (broadcastInDim S1x2048 ![1] bcast_S2048_S1x2048_1
        (Host.exp (F := Ideal) (mulf (F := Ideal) (broadcastInDim S2048 ![] bcast_S_S2048 (constant (F := Ideal) S_ .f32 0xC0000000#32)) a2))
      : S1x2048.Idx → EReal) (ix2 (0 : Fin 1) k)
      = Ideal.exp (negTwoW * a2 (ix1 k)) := by
  refine (row2048_read _ k).trans ?_
  show Ideal.exp ((broadcastInDim S2048 ![] bcast_S_S2048 (constant (F := Ideal) S_ .f32 0xC0000000#32)) (ix1 k) * a2 (ix1 k)) = _
  refine congrArg (fun t => Ideal.exp (t * a2 (ix1 k))) ?_
  exact broadcastInDim_apply _ bcast_S_S2048 _ (ix1 k) ix0 (fun a => a.elim0)

/-- The centres' term as the host operations compute it from the centres `a1` and the log-widths `a2`, read at
    column `k`: the squared norm of centre `k` (summed from the zero word) times its inverse squared width, negated. -/
theorem cterm_read (a1 : FVec Ideal S2048x784 .f32) (a2 : FVec Ideal S2048 .f32) (k : Fin 2048) :
    (Host.negf (F := Ideal) (mulf (F := Ideal)
        (broadcastInDim S1x2048 ![1] bcast_S2048_S1x2048_1
          (Host.reduceAdd (F := Ideal) (mulf (F := Ideal) a1 a1) (constant (F := Ideal) S_ .f32 0x00000000#32) reducesTo_S2048x784_S2048_d1 h_S_))
        (broadcastInDim S1x2048 ![1] bcast_S2048_S1x2048_1
          (Host.exp (F := Ideal) (mulf (F := Ideal) (broadcastInDim S2048 ![] bcast_S_S2048 (constant (F := Ideal) S_ .f32 0xC0000000#32)) a2))))
      : S1x2048.Idx → EReal) (ix2 (0 : Fin 1) k)
      = -((zeroW + rowSq (n := 2048) (d := 784) a1 k) * Ideal.exp (negTwoW * a2 (ix1 k))) := by
  show -((broadcastInDim S1x2048 ![1] bcast_S2048_S1x2048_1
          (Host.reduceAdd (F := Ideal) (mulf (F := Ideal) a1 a1) (constant (F := Ideal) S_ .f32 0x00000000#32) reducesTo_S2048x784_S2048_d1 h_S_)) (ix2 (0 : Fin 1) k)
        * (broadcastInDim S1x2048 ![1] bcast_S2048_S1x2048_1
          (Host.exp (F := Ideal) (mulf (F := Ideal) (broadcastInDim S2048 ![] bcast_S_S2048 (constant (F := Ideal) S_ .f32 0xC0000000#32)) a2))) (ix2 (0 : Fin 1) k)) = _
  rw [invSig2_read a2 k, row2048_read _ k, hostSum_read _ _ k]
  rfl

/-! ## The five arrays the region finds -/

variable (m : (ℓ : Loc nD τ sig) → Buf (Elt Ideal) ℓ) (c : Dev nD)

/-- The staged centres are the centres transposed (the change of format is the identity). -/
theorem centresT_apply (d : Fin 784) (k : Fin 2048) :
    (V m c main_v10 : S784x2048.Idx → EReal) (ix2 d k) = (m ((c : Thread nD τ).loc main_arg1) : S2048x784.Idx → EReal) (ix2 k d) := by
  have e : (V m c main_v10 : S784x2048.Idx → EReal)
      = truncf (F := Ideal) .bf16 (transpose S784x2048 [1, 0] (m ((c : Thread nD τ).loc main_arg1) : S2048x784.Idx → EReal) transposes_S2048x784_S784x2048_1_0 : FVec Ideal S784x2048 .f32) bitsLt_bf16_f32 := by
    dsimp only [Gen.V, Gen.hostOps0]; after_results
  rw [e]
  refine (truncf_apply (φ := .f32) (ψ := .bf16) _ bitsLt_bf16_f32 _).trans ?_
  exact transpose_apply [1, 0] _ transposes_S2048x784_S784x2048_1_0 (ix2 d k) (ix2 k d) (fun b => match b with
    | ⟨0, _⟩ => rfl
    | ⟨1, _⟩ => rfl)

/-- The inverse squared width of centre `k`: the exponential of `-2.0` times its log-width. -/
theorem invSig2_apply (k : Fin 2048) :
    (V m c main_v6 : S1x2048.Idx → EReal) (ix2 (0 : Fin 1) k)
      = Ideal.exp (negTwoW * (m ((c : Thread nD τ).loc main_arg2) : S2048.Idx → EReal) (ix1 k)) := by
  have e : (V m c main_v6 : S1x2048.Idx → EReal)
      = broadcastInDim S1x2048 ![1] bcast_S2048_S1x2048_1
        (Host.exp (F := Ideal) (mulf (F := Ideal) (broadcastInDim S2048 ![] bcast_S_S2048 (constant (F := Ideal) S_ .f32 0xC0000000#32))
          (m ((c : Thread nD τ).loc main_arg2) : FVec Ideal S2048 .f32))) := by
    dsimp only [Gen.V, Gen.hostOps0]; after_results
  rw [e]
  exact invSig2_read _ k

/-- The centres' term: minus the centre's squared norm (summed from the zero word) times its inverse squared width. -/
theorem cterm_apply (k : Fin 2048) :
    (V m c main_v8 : S1x2048.Idx → EReal) (ix2 (0 : Fin 1) k)
      = -((zeroW + rowSq (n := 2048) (d := 784) (m ((c : Thread nD τ).loc main_arg1)) k)
          * Ideal.exp (negTwoW * (m ((c : Thread nD τ).loc main_arg2) : S2048.Idx → EReal) (ix1 k))) := by
  have e : (V m c main_v8 : S1x2048.Idx → EReal)
      = Host.negf (F := Ideal) (mulf (F := Ideal)
        (broadcastInDim S1x2048 ![1] bcast_S2048_S1x2048_1
          (Host.reduceAdd (F := Ideal) (mulf (F := Ideal) (m ((c : Thread nD τ).loc main_arg1) : FVec Ideal S2048x784 .f32) (m ((c : Thread nD τ).loc main_arg1) : FVec Ideal S2048x784 .f32))
            (constant (F := Ideal) S_ .f32 0x00000000#32) reducesTo_S2048x784_S2048_d1 h_S_))
        (broadcastInDim S1x2048 ![1] bcast_S2048_S1x2048_1
          (Host.exp (F := Ideal) (mulf (F := Ideal) (broadcastInDim S2048 ![] bcast_S_S2048 (constant (F := Ideal) S_ .f32 0xC0000000#32))
            (m ((c : Thread nD τ).loc main_arg2) : FVec Ideal S2048 .f32))))) := by
    dsimp only [Gen.V, Gen.hostOps0]; after_results
  rw [e]
  exact cterm_read _ _ k

/-- The staged weights are the weights transposed. -/
theorem weightsT_apply (k : Fin 2048) (o : Fin 10) :
    (V m c main_v12 : S2048x10.Idx → EReal) (ix2 k o) = (m ((c : Thread nD τ).loc main_arg3) : S10x2048.Idx → EReal) (ix2 o k) := by
  have e : (V m c main_v12 : S2048x10.Idx → EReal)
      = truncf (F := Ideal) .bf16 (transpose S2048x10 [1, 0] (m ((c : Thread nD τ).loc main_arg3) : S10x2048.Idx → EReal) transposes_S10x2048_S2048x10_1_0 : FVec Ideal S2048x10 .f32) bitsLt_bf16_f32 := by
    dsimp only [Gen.V, Gen.hostOps0]; after_results
  rw [e]
  refine (truncf_apply (φ := .f32) (ψ := .bf16) _ bitsLt_bf16_f32 _).trans ?_
  exact transpose_apply [1, 0] _ transposes_S10x2048_S2048x10_1_0 (ix2 k o) (ix2 o k) (fun b => match b with
    | ⟨0, _⟩ => rfl
    | ⟨1, _⟩ => rfl)

/-- The bias row is the bias. -/
theorem biasRow_apply (o : Fin 10) :
    (V m c main_v13 : S1x10.Idx → EReal) (ix2 (0 : Fin 1) o) = (m ((c : Thread nD τ).loc main_arg4) : S10.Idx → EReal) (ix1 o) := by
  have e : (V m c main_v13 : S1x10.Idx → EReal)
      = broadcastInDim S1x10 ![1] bcast_S10_S1x10_1 (m ((c : Thread nD τ).loc main_arg4) : S10.Idx → EReal) := by
    dsimp only [Gen.V, Gen.hostOps0]; after_results
  rw [e]
  exact broadcastInDim_apply _ bcast_S10_S1x10_1 _ (ix2 (0 : Fin 1) o) (ix1 o) (fun a => match a with
    | ⟨0, _⟩ => by show o.val = if (10 : Nat) = 1 then 0 else o.val; rw [if_neg (by decide)])

end Cert.Rbf.Host

end
-- ==== Proof.Blocks.lean ====
/-
  From blocks to the whole array.  The grid has 16 points; point `t` stages rows 1024·t … 1024·t + 1023 of the
  samples and every other operand whole, and writes back rows 1024·t … 1024·t + 1023 of the result.  The body's
  stored value at (r, o) of the block (`Body.pay_apply`), with each loaded block read where it sits in its array —
  the samples at row 1024·t + r, the host-written operands by `Host.*_apply` — is the classifier in the kernel's
  arrangement at (1024·t + r, o); the 16 blocks cover the 16384 rows, so the result array is `Garr basisK`.
-/
import proofs.«124803_j23922967839460_2_alg».proof.Proof.Spec
import proofs.«124803_j23922967839460_2_alg».proof.Proof.Payload
import proofs.«124803_j23922967839460_2_alg».proof.Proof.HostPrefix
import proofs.«124803_j23922967839460_2_alg».proof.Proof.Gen.KernelIdeal.Value

noncomputable section

namespace Cert.Rbf.Blocks

open Cert.KernelIdeal Cert.KernelIdeal.Gen Idealize.ShloMosaic Idealize.ShloMosaic.TcCoe Idealize.SL.Sem
open Idealize.ShloMosaic.ValueIdx Cert.Rbf
open Idealize.ShloMosaic.Pipeline (Dat)

variable (m : (ℓ : Loc nD τ sig) → Buf (Elt Ideal) ℓ) (ρ : Dev nD → PrngReg)

/-- The five argument arrays on core `c`, as arrays of extended reals. -/
abbrev aX (c : Dev nD) : Arr2 16384 784 := m ((c : Thread nD τ).loc main_arg0)
abbrev aC (c : Dev nD) : Arr2 2048 784 := m ((c : Thread nD τ).loc main_arg1)
abbrev aL (c : Dev nD) : Arr1 2048 := m ((c : Thread nD τ).loc main_arg2)
abbrev aW (c : Dev nD) : Arr2 10 2048 := m ((c : Thread nD τ).loc main_arg3)
abbrev aB (c : Dev nD) : Arr1 10 := m ((c : Thread nD τ).loc main_arg4)

theorem hz : (![0, 0] : Fin 2 → Nat) = fun _ => 0 := funext fun a => by fin_cases a <;> rfl

/-- The printed index maps over the 16 points: the sample and result windows move with the point along the rows,
    every other window stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 16 := by
  have h : t.val < grid0.N := t.isLt
  rw [N_0] at h; exact h

/-- Row `r` of point `t`'s block is row 1024·t + r of the array. -/
abbrev rowOf (t : Fin cfg0.N) (r : Fin 1024) : Fin 16384 := ⟨1024 * t.val + r.val, by have := t_lt t; have := r.isLt; omega⟩

/-! ## Each window's block, read where it sits in its array -/

/-- The sample block at point `t`: rows 1024·t … of the samples. -/
theorem blk0_apply (c : Dev nD) (t : Fin cfg0.N) (r : Fin 1024) (d : Fin 784) :
    (iblk m c 0 t : Vec Ideal S1024x784 .f32) (ix2 r d) = aX m c (ix2 (rowOf t r) d) := by
  obtain ⟨e0, e1, -⟩ := idx_facts t
  unfold iblk
  rw [View.read_apply]
  show V m c main_arg0 _ = m ((c : Thread nD τ).loc main_arg0) _
  rw [V_main_arg0]
  refine congrArg (m ((c : Thread nD τ).loc main_arg0)) (funext fun a => Fin.ext ?_)
  match a with
  | ⟨0, _⟩ => show win0_0.index t (0 : Fin 2) * 1024 + 1 * r.val = 1024 * t.val + r.val; omega
  | ⟨1, _⟩ => show win0_0.index t (1 : Fin 2) * 784 + 1 * d.val = d.val; omega

/-- The transposed centres' block is the whole array at every point. -/
theorem blk1_apply (c : Dev nD) (t : Fin cfg0.N) (d : Fin 784) (k : Fin 2048) :
    (iblk m c 1 t : Vec Ideal S784x2048 .bf16) (ix2 d k) = aC m c (ix2 k d) := by
  obtain ⟨-, -, e0, e1, -⟩ := idx_facts t
  unfold iblk
  rw [View.read_apply]
  show (V m c main_v10 : S784x2048.Idx → EReal) _ = _
  refine (congrArg (V m c main_v10 : S784x2048.Idx → EReal) (funext fun a => Fin.ext ?_)).trans (Host.centresT_apply m c d k)
  match a with
  | ⟨0, _⟩ => show win0_1.index t (0 : Fin 2) * 784 + 1 * d.val = d.val; omega
  | ⟨1, _⟩ => show win0_1.index t (1 : Fin 2) * 2048 + 1 * k.val = k.val; omega

/-- The centres' term row. -/
theorem blk2_apply (c : Dev nD) (t : Fin cfg0.N) (k : Fin 2048) :
    (iblk m c 2 t : Vec Ideal S1x2048 .f32) (ix2 (0 : Fin 1) k)
      = -((zeroW + rowSq (aC m c) k) * Ideal.exp (negTwoW * aL m c (ix1 k))) := by
  obtain ⟨-, -, -, -, e0, e1, -⟩ := idx_facts t
  unfold iblk
  rw [View.read_apply]
  show (V m c main_v8 : S1x2048.Idx → EReal) _ = _
  refine (congrArg (V m c main_v8 : S1x2048.Idx → EReal) (funext fun a => Fin.ext ?_)).trans (Host.cterm_apply m c k)
  match a with
  | ⟨0, _⟩ => show win0_2.index t (0 : Fin 2) * 1 + 1 * 0 = 0; omega
  | ⟨1, _⟩ => show win0_2.index t (1 : Fin 2) * 2048 + 1 * k.val = k.val; omega

/-- The inverse squared widths' row. -/
theorem blk3_apply (c : Dev nD) (t : Fin cfg0.N) (k : Fin 2048) :
    (iblk m c 3 t : Vec Ideal S1x2048 .f32) (ix2 (0 : Fin 1) k) = Ideal.exp (negTwoW * aL m c (ix1 k)) := by
  obtain ⟨-, -, -, -, -, -, e0, e1, -⟩ := idx_facts t
  unfold iblk
  rw [View.read_apply]
  show (V m c main_v6 : S1x2048.Idx → EReal) _ = _
  refine (congrArg (V m c main_v6 : S1x2048.Idx → EReal) (funext fun a => Fin.ext ?_)).trans (Host.invSig2_apply m c k)
  match a with
  | ⟨0, _⟩ => show win0_3.index t (0 : Fin 2) * 1 + 1 * 0 = 0; omega
  | ⟨1, _⟩ => show win0_3.index t (1 : Fin 2) * 2048 + 1 * k.val = k.val; omega

/-- The transposed weights. -/
theorem blk4_apply (c : Dev nD) (t : Fin cfg0.N) (k : Fin 2048) (o : Fin 10) :
    (iblk m c 4 t : Vec Ideal S2048x10 .bf16) (ix2 k o) = aW m c (ix2 o k) := by
  obtain ⟨-, -, -, -, -, -, -, -, e0, e1, -⟩ := idx_facts t
  unfold iblk
  rw [View.read_apply]
  show (V m c main_v12 : S2048x10.Idx → EReal) _ = _
  refine (congrArg (V m c main_v12 : S2048x10.Idx → EReal) (funext fun a => Fin.ext ?_)).trans (Host.weightsT_apply m c k o)
  match a with
  | ⟨0, _⟩ => show win0_4.index t (0 : Fin 2) * 2048 + 1 * k.val = k.val; omega
  | ⟨1, _⟩ => show win0_4.index t (1 : Fin 2) * 10 + 1 * o.val = o.val; omega

/-- The bias row. -/
theorem blk5_apply (c : Dev nD) (t : Fin cfg0.N) (o : Fin 10) :
    (iblk m c 5 t : Vec Ideal S1x10 .f32) (ix2 (0 : Fin 1) o) = aB m c (ix1 o) := by
  obtain ⟨-, -, -, -, -, -, -, -, -, -, e0, e1, -⟩ := idx_facts t
  unfold iblk
  rw [View.read_apply]
  show (V m c main_v13 : S1x10.Idx → EReal) _ = _
  refine (congrArg (V m c main_v13 : S1x10.Idx → EReal) (funext fun a => Fin.ext ?_)).trans (Host.biasRow_apply m c o)
  match a with
  | ⟨0, _⟩ => show win0_5.index t (0 : Fin 2) * 1 + 1 * 0 = 0; omega
  | ⟨1, _⟩ => show win0_5.index t (1 : Fin 2) * 10 + 1 * o.val = o.val; omega

/-! ## What a point writes back, the cover, and the whole array -/

/-- Point `t` writes back block `t` of the classifier in the kernel's arrangement: the body's stored value at (r, o),
    every loaded block read where it sits, is the function at (1024·t + r, o). -/
theorem flushed_eq (c : Dev nD) (t : Fin cfg0.N) :
    (dats m 0 c).flushed 6 t
      = ((cfg0.win 6).blk t).view.read (Elt Ideal) (Garr basisK (aX m c) (aC m c) (aL m c) (aW m c) (aB m c)) := by
  rw [Cert.KernelIdeal.Value.flushed6]
  unfold out0_6
  rw [View.canon_unit_zero hz]
  simp only [View.ld_unit_zero (S := S1024x784) hz, View.ld_unit_zero (S := S784x2048) hz,
    View.ld_unit_zero (S := S1x2048) hz, View.ld_unit_zero (S := S2048x10) hz, View.ld_unit_zero (S := S1x10) hz]
  obtain ⟨-, -, -, -, -, -, -, -, -, -, -, -, e0, e1⟩ := idx_facts t
  funext y
  obtain ⟨r, o, rfl⟩ : ∃ (r : Fin 1024) (o : Fin 10), y = ix2 r o := ⟨y 0, y 1, eq_ix2 y⟩
  rw [View.read_apply]
  have hemb : ((cfg0.win 6).blk t).view.emb (ix2 r o) = ix2 (rowOf t r) o := funext fun a => Fin.ext (by
    match a with
    | ⟨0, _⟩ => show win0_6.index t (0 : Fin 2) * 1024 + 1 * r.val = 1024 * t.val + r.val; omega
    | ⟨1, _⟩ => show win0_6.index t (1 : Fin 2) * 10 + 1 * o.val = o.val; omega)
  rw [hemb, Garr_ix2]
  show k0_pay1 (iblk m c 0 t) (iblk m c 1 t) (iblk m c 3 t) (iblk m c 2 t) (iblk m c 4 t) (iblk m c 5 t) (ix2 r o) = _
  refine (Body.pay_apply (iblk m c 0 t) (iblk m c 1 t) (iblk m c 3 t) (iblk m c 2 t) (iblk m c 4 t) (iblk m c 5 t) r o).trans ?_
  simp only [blk0_apply m c t, blk1_apply m c t, blk2_apply m c t, blk3_apply m c t, blk4_apply m c t, blk5_apply m c t]
  rfl

/-- An index of the result array is in point `t`'s block iff each coordinate is in the block's range on its axis. -/
theorem mem_blk (t : Fin cfg0.N) (i : S16384x10.Idx) :
    i ∈ ((cfg0.win 6).blk t).view.set ↔ ∀ a : Fin 2, win0_6.index t a * S1024x10.size a ≤ (i a).val
      ∧ (i a).val < win0_6.index t a * S1024x10.size a + S1024x10.size a := by
  show i ∈ ((View.whole main_v14).slice (win0_6.rect t)).set ↔ _
  rw [View.set_slice_whole, Rect.mem_set_unit]
  exact Iff.rfl

/-- Row `n` of the result is written by point `n / 1024`: the 16 blocks cover the array. -/
theorem cover (i : S16384x10.Idx) :
    ∃ t : Fin cfg0.N, (cfg0.win 6).flush t = true ∧ i ∈ ((cfg0.win 6).blk t).view.set := by
  have hi0 : (i 0).val < 16384 := (i 0).isLt
  have hi1 : (i 1).val < 10 := (i 1).isLt
  have hN : (i 0).val / 1024 < grid0.N := by rw [N_0]; omega
  obtain ⟨-, -, -, -, -, -, -, -, -, -, -, -, e0, e1⟩ := idx_facts ⟨(i 0).val / 1024, hN⟩
  refine ⟨⟨(i 0).val / 1024, hN⟩, flush0_6 _, ?_⟩
  rw [mem_blk]
  intro a
  match a with
  | ⟨0, _⟩ =>
    show win0_6.index ⟨(i 0).val / 1024, hN⟩ (0 : Fin 2) * 1024 ≤ (i 0).val
      ∧ (i 0).val < win0_6.index ⟨(i 0).val / 1024, hN⟩ (0 : Fin 2) * 1024 + 1024
    rw [e0]; show (i 0).val / 1024 * 1024 ≤ (i 0).val ∧ (i 0).val < (i 0).val / 1024 * 1024 + 1024; omega
  | ⟨1, _⟩ =>
    show win0_6.index ⟨(i 0).val / 1024, hN⟩ (1 : Fin 2) * 10 ≤ (i 1).val
      ∧ (i 1).val < win0_6.index ⟨(i 0).val / 1024, hN⟩ (1 : Fin 2) * 10 + 10
    rw [e1]; omega

/-- The result array after the run is the classifier in the kernel's arrangement. -/
theorem final (c : Dev nD) :
    (dats m 0 c).arrAt 6 cfg0.N = Garr basisK (aX m c) (aC m c) (aL m c) (aW m c) (aB m c) :=
  (dats m 0 c).arrAt_eq_of_cover 6 (Garr basisK (aX m c) (aC m c) (aL m c) (aW m c) (aB m c))
    (fun t _ => flushed_eq m c t) cover

/-- The kernel's run with the result array named: every weakly fair execution ends with the result at the classifier in
    the kernel's arrangement of the launch arguments, the arguments unchanged. -/
theorem run : θ_run defs (onTc (τ := τ) (main (F := Ideal))) ⟨m, fun _ => 0, ρ⟩ fun r => ∀ c : Dev nD,
      r.2.mem ((c : Thread nD τ).loc main_v14) = Garr basisK (aX m c) (aC m c) (aL m c) (aW m c) (aB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.Rbf.Blocks

end
-- ==== Proof.lean ====
/-
  The proof of the certificate's claim.

  Both programs compute a radial-basis classifier of 16384 samples against 2048 centres into 10 classes; as
  extended reals, under the precondition that every input is finite, they compute the same array.
  * Proof/Spec.lean states the result as one function of the five arguments, index by index, in the kernel's
    arrangement (`basisK`: the inverse squared width times (2·x·c − |x|²), minus the centre's term, clipped above
    at zero) and in the reference's (`basisR`: the root of the clipped squared distance over the width, squared
    and negated).
  * Proof/Algebra.lean: on real numbers the two arrangements agree — (√u)² = u for u ≥ 0, 1/(e^l)² = e^(−2l),
    and −(max t 0)·p = min (−t·p) 0 for p > 0; distributing the inverse squared width over the difference is
    where finiteness is used.
  * Proof/Finite.lean: the precondition makes the samples, centres and log-widths real.
  * Proof/RefSpec.lean: the reference's result, read one operation at a time, is the function in its arrangement.
  * Proof/Payload.lean, Proof/HostPrefix.lean, Proof/Blocks.lean: the kernel body's stored value at an index, the
    arrays the host prepares for it, and the 16 row blocks covering the result: the kernel's result array is the
    function in the kernel's arrangement.
  The frames of the two kernel programs are the generated ones; the reference's frame is its generated run with
  the result dropped; the idealization rewrote no operation, so there is nothing to preserve.
-/
import proofs.«124803_j23922967839460_2_alg».proof.Defs
import proofs.«124803_j23922967839460_2_alg».proof.Proof.Gen.Kernel
import proofs.«124803_j23922967839460_2_alg».proof.Proof.Gen.Kernel.Skeleton
import proofs.«124803_j23922967839460_2_alg».proof.Proof.Gen.Kernel.Launch
import proofs.«124803_j23922967839460_2_alg».proof.Proof.Gen.Kernel.Points
import proofs.«124803_j23922967839460_2_alg».proof.Proof.Gen.Kernel.Frame
import proofs.«124803_j23922967839460_2_alg».proof.Proof.Gen.KernelIdeal
import proofs.«124803_j23922967839460_2_alg».proof.Proof.Gen.KernelIdeal.Skeleton
import proofs.«124803_j23922967839460_2_alg».proof.Proof.Gen.KernelIdeal.Launch
import proofs.«124803_j23922967839460_2_alg».proof.Proof.Gen.KernelIdeal.Points
import proofs.«124803_j23922967839460_2_alg».proof.Proof.Gen.KernelIdeal.Frame
import proofs.«124803_j23922967839460_2_alg».proof.Proof.Gen.ReferenceIdeal
import proofs.«124803_j23922967839460_2_alg».proof.Proof.Gen.Pre_finite_inputs
import proofs.«124803_j23922967839460_2_alg».proof.Proof.Gen.KernelIdeal.Value
import proofs.«124803_j23922967839460_2_alg».proof.Proof.Gen.ReferenceIdeal.Run
import proofs.«124803_j23922967839460_2_alg».proof.Proof.Gen.ReferenceIdeal.Read
import proofs.«124803_j23922967839460_2_alg».proof.Proof.Spec
import proofs.«124803_j23922967839460_2_alg».proof.Proof.Algebra
import proofs.«124803_j23922967839460_2_alg».proof.Proof.RefSpec
import proofs.«124803_j23922967839460_2_alg».proof.Proof.Finite
import proofs.«124803_j23922967839460_2_alg».proof.Proof.Blocks
import Idealize.ShloMosaic.Adequacy
import Idealize.ShloMosaic.Init

noncomputable section

namespace Cert.Proof

open Idealize.ShloMosaic Idealize.ShloMosaic.TcCoe Idealize.SL.Sem Cert.Rbf

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a host program: its run, with the result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments, of which the kernel's are finite, both programs end with the
    classifier's array: the kernel's in its own arrangement, the reference's in its own, and on real samples,
    centres and log-widths the two arrangements are one array. -/
theorem algebraic : Cert.algebraic_KernelIdeal_ReferenceIdeal := by
  intro m ρ m' ρ' hpre hagree
  refine ⟨_, Cert.Rbf.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hc, hl⟩ := Cert.Rbf.Fin.real_of_pre m hpre c
  rw [Cert.ReferenceIdeal.Read.val_main_v28_eq, Cert.Rbf.Ref.ref_eq, (hagree c).1, (hagree c).2.1, (hagree c).2.2.1,
    (hagree c).2.2.2.1, (hagree c).2.2.2.2]
  exact (Garr_basis_eq _ _ _ _ _ hx hc hl).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
